-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S_ : Shape := ⟨0, ![]⟩

class Facts : Prop where
  bcast_S_S64x512x64 : S_.BroadcastsInDim S64x512x64 (![] : Fin 0 → Fin S64x512x64.rank)
  reducesTo_S64x512x64_S_d0_1_2 : S64x512x64.ReducesTo [0, 1, 2] S_
  h_S_ : 0 < S_.numel
  bcast_S_S64x16384x3 : S_.BroadcastsInDim S64x16384x3 (![] : Fin 0 → Fin S64x16384x3.rank)
  reducesTo_S64x16384x3_S_d0_1_2 : S64x16384x3.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_
  bcast_S_S1024x3 : S_.BroadcastsInDim S1024x3 (![] : Fin 0 → Fin S1024x3.rank)
  reducesTo_S1024x3_S_d0_1 : S1024x3.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S1024x3 .f32) (main_arg5 : FVec F S1024 .f32) (main_arg6 : FVec F S512x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3 .f32 := Host.absf main_arg4
  let main_cst_6 : FVec F S_ .f32 := constant S_ .f32 0x7F800000#32
  let main_v20 : FVec F S1024x3 .f32 := broadcastInDim S1024x3 ![] bcast_S_S1024x3 main_cst_6
  let main_v21 : IVec S1024x3 1 := cmpf .olt main_v19 main_v20
  let main_c_7 : IVec S_ 1 := constantI S_ 1 1#1
  let main_v22 : IVec S_ 1 := (fun x v => Host.reduce IntOp.andi x v reducesTo_S1024x3_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  main_v33

def fn {F : FTy → Type} [FloatOps F] (main_arg0 : FVec F S64x512x64 .f32) (main_arg1 : FVec F S64x16384x3 .f32) (main_arg2 : FVec F S1024x64 .f32) (main_arg3 : FVec F S1024 .f32) (main_arg4 : FVec F S1024x3 .f32) (main_arg5 : FVec F S1024 .f32) (main_arg6 : FVec F S512x1024 .f32) : IVec S_ 1 :=
  let main_v0 : FVec F S64x512x64 .f32 := Host.absf main_arg0
  let main_cst : FVec F S_ .f32 := constant S_ .f32 0x7F800000#32
  let main_v1 : FVec F S64x512x64 .f32 := broadcastInDim S64x512x64 ![] bcast_S_S64x512x64 main_cst
  let main_v2 : IVec S64x512x64 1 := cmpf .olt main_v0 main_v1
  let main_c : IVec S_ 1 := constantI S_ 1 1#1
  let main_v3 : IVec S_ 1 := (fun x v => Host.reduce IntOp.andi x v reducesTo_S64x512x64_S_d0_1_2 h_S_) main_v2 main_c
  let main_v4 : FVec F S64x16384x3 .f32 := Host.absf main_arg1
  let main_cst_0 : FVec F S_ .f32 := constant S_ .f32 0x7F800000#32
  let main_v5 : FVec F S64x16384x3 .f32 := broadcastInDim S64x16384x3 ![] bcast_S_S64x16384x3 main_cst_0
  let main_v6 : IVec S64x16384x3 1 := cmpf .olt main_v4 main_v5
  let main_c_1 : IVec S_ 1 := constantI S_ 1 1#1
  let main_v7 : IVec S_ 1 := (fun x v => Host.reduce IntOp.andi x v reducesTo_S64x16384x3_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S64x512x96 : Shape := ⟨3, ![64, 512, 96]⟩
abbrev S1x1024x1x3 : Shape := ⟨4, ![1, 1024, 1, 3]⟩
abbrev S1x1024x32x3 : Shape := ⟨4, ![1, 1024, 32, 3]⟩
abbrev S1024x96 : Shape := ⟨2, ![1024, 96]⟩
abbrev S_ : Shape := ⟨0, ![]⟩
abbrev S96x1024 : Shape := ⟨2, ![96, 1024]⟩
abbrev S64x1024 : Shape := ⟨2, ![64, 1024]⟩
abbrev S1x1024 : Shape := ⟨2, ![1, 1024]⟩
abbrev S64x512x1024 : Shape := ⟨3, ![64, 512, 1024]⟩
abbrev S2x512x64 : Shape := ⟨3, ![2, 512, 64]⟩
abbrev S2x512x96 : Shape := ⟨3, ![2, 512, 96]⟩
abbrev S2x512x1024 : Shape := ⟨3, ![2, 512, 1024]⟩
abbrev S1024x1024 : Shape := ⟨2, ![1024, 1024]⟩
abbrev S1x512x1024 : Shape := ⟨3, ![1, 512, 1024]⟩

abbrev nBuf : Space → Nat
  | .hbm => 23
  | .vmem => 9
  | .smem => 0
  | _ => 0

abbrev bufTy : (tb : Table) → Fin (tcTables nBuf tb) → BufTy
  | .hbm, ⟨0, _⟩ => ⟨S64x512x64, .f32⟩
  | .hbm, ⟨1, _⟩ => ⟨S64x16384x3, .f32⟩
  | .hbm, ⟨2, _⟩ => ⟨S1024x64, .f32⟩
  | .hbm, ⟨3, _⟩ => ⟨S1024, .f32⟩
  | .hbm, ⟨4, _⟩ => ⟨S1024x3, .f32⟩
  | .hbm, ⟨5, _⟩ => ⟨S1024, .f32⟩
  | .hbm, ⟨6, _⟩ => ⟨S512x1024, .f32⟩
  | .hbm, ⟨7, _⟩ => ⟨S64x512x96, .f32⟩
  | .hbm, ⟨8, _⟩ => ⟨S1x1024x1x3, .f32⟩
  | .hbm, ⟨9, _⟩ => ⟨S1x1024x32x3, .f32⟩
  | .hbm, ⟨10, _⟩ => ⟨S1024x96, .f32⟩
  | .hbm, ⟨11, _⟩ => ⟨S_, .f32⟩
  | .hbm, ⟨12, _⟩ => ⟨S1024x96, .f32⟩
  | .hbm, ⟨13, _⟩ => ⟨S1024x96, .f32⟩
  | .hbm, ⟨14, _⟩ => ⟨S96x1024, .f32⟩
  | .hbm, ⟨15, _⟩ => ⟨S64x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S64x512x1024, .f32⟩
  | .local _ .vmem, ⟨0, _⟩ => ⟨S2x512x64, .f32⟩
  | .local _ .vmem, ⟨1, _⟩ => ⟨S2x512x64, .f32⟩
  | .local _ .vmem, ⟨2, _⟩ => ⟨S2x512x96, .f32⟩
  | .local _ .vmem, ⟨3, _⟩ => ⟨S2x512x96, .f32⟩
  | .local _ .vmem, ⟨4, _⟩ => ⟨S64x1024, .f32⟩
  | .local _ .vmem, ⟨5, _⟩ => ⟨S96x1024, .f32⟩
  | .local _ .vmem, ⟨6, _⟩ => ⟨S512x1024, .f32⟩
  | .local _ .vmem, ⟨7, _⟩ => ⟨S2x512x1024, .f32⟩
  | .local _ .vmem, ⟨8, _⟩ => ⟨S2x512x1024, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x16384x3_S64x512x96 : S64x16384x3.ShapeCasts S64x512x96
  shapeCasts_S1024x3_S1x1024x1x3 : S1024x3.ShapeCasts S1x1024x1x3
  bcast_S1x1024x1x3_S1x1024x32x3_0_1_2_3 : S1x1024x1x3.BroadcastsInDim S1x1024x32x3 (![0, 1, 2, 3] : Fin 4 → Fin S1x1024x32x3.rank)
  shapeCasts_S1x1024x32x3_S1024x96 : S1x1024x32x3.ShapeCasts S1024x96
  bcast_S_S1024x96 : S_.BroadcastsInDim S1024x96 (![] : Fin 0 → Fin S1024x96.rank)
  transposes_S1024x96_S96x1024_1_0 : S1024x96.Transposes [1, 0] S96x1024
  transposes_S1024x64_S64x1024_1_0 : S1024x64.Transposes [1, 0] S64x1024
  shapeCasts_S1024_S1x1024 : S1024.ShapeCasts S1x1024
  bcast_S1x1024_S512x1024_0_1 : S1x1024.BroadcastsInDim S512x1024 (![0, 1] : Fin 2 → Fin S512x1024.rank)
  inb_S2x512x64_S2x512x64_0_0_0 : ∀ a, (![0, 0, 0] : Fin 3 → Nat) a + S2x512x64.size a ≤ S2x512x64.size a
  h_S2x512x64 : 0 < S2x512x64.numel
  shapeCasts_S2x512x64_S1024x64 : S2x512x64.ShapeCasts S1024x64
  bitsLt_bf16_f32 : FTy.bits .bf16 < FTy.bits .f32
  inb_S2x512x96_S2x512x96_0_0_0 : ∀ a, (![0, 0, 0] : Fin 3 → Nat) a + S2x512x96.size a ≤ S2x512x96.size a
  h_S2x512x96 : 0 < S2x512x96.numel
  shapeCasts_S2x512x96_S2x512x96 : S2x512x96.ShapeCasts S2x512x96
  shapeCasts_S2x512x96_S1024x96 : S2x512x96.ShapeCasts S1024x96
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S96x1024_S96x1024_0_0 : ∀ a, (![0, 0] : Fin 2 → Nat) a + S96x1024.size a ≤ S96x1024.size a
  h_S96x1024 : 0 < S96x1024.numel
  shapeCasts_S96x1024_S96x1024 : S96x1024.ShapeCasts S96x1024
  shapeCasts_S1024x1024_S2x512x1024 : S1024x1024.ShapeCasts S2x512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S1x512x1024 : S512x1024.ShapeCasts S1x512x1024
  shapeCasts_S1x512x1024_S1x512x1024 : S1x512x1024.ShapeCasts S1x512x1024
  broadcasts_S1x512x1024_S2x512x1024 : S1x512x1024.Broadcasts S2x512x1024
  inb_S2x512x1024_S2x512x1024_0_0_0 : ∀ a, (![0, 0, 0] : Fin 3 → Nat) a + S2x512x1024.size a ≤ S2x512x1024.size a
  h_S2x512x1024 : 0 < S2x512x1024.numel
  dot_S1024x64_S64x1024_S1024x1024_1_0_0_1_n_n_wf : DotDims.WF S1024x64 S64x1024 S1024x1024 [1] [0] [0] [1] [] []
  dot_S1024x96_S96x1024_S1024x1024_1_0_0_1_n_n_wf : DotDims.WF S1024x96 S96x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x64.size a ≤ S64x512x64.size a
  hwx0_0 : ∀ i : grid0.Coords, EltTy.bits .f32 = 32 ∨ (Rect.block (s := S64x512x64) S2x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x96.size a ≤ S64x512x96.size a
  hwx0_1 : ∀ i : grid0.Coords, EltTy.bits .f32 = 32 ∨ (Rect.block (s := S64x512x96) S2x512x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x1024.size a ≤ S96x1024.size a
  hwx0_3 : ∀ i : grid0.Coords, EltTy.bits .f32 = 32 ∨ (Rect.block (s := S96x1024) S96x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x1024.size a ≤ S64x512x1024.size a
  hwx0_5 : ∀ i : grid0.Coords, EltTy.bits .f32 = 32 ∨ (Rect.block (s := S64x512x1024) S2x512x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x96_S96x1024_S1024x1024_1_0_0_1_n_n : DotDims S1024x96 S96x1024 S1024x1024 where
  lhsContracting := [1]
  rhsContracting := [0]
  lhsNonContracting := [0]
  rhsNonContracting := [1]
  lhsBatch := []
  rhsBatch := []
  wf := dot_S1024x96_S96x1024_S1024x1024_1_0_0_1_n_n_wf

abbrev win0_0 : Pipeline.Window sig grid0 :=
  Pipeline.Window.ofSpec (Memref.whole main_arg0) S2x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x512x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S96x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S64x512x32x3 : Shape := ⟨4, ![64, 512, 32, 3]⟩
abbrev S_ : Shape := ⟨0, ![]⟩
abbrev S64x512x3 : Shape := ⟨3, ![64, 512, 3]⟩
abbrev S64x512x1024 : Shape := ⟨3, ![64, 512, 1024]⟩
abbrev S1x1x1024 : Shape := ⟨3, ![1, 1, 1024]⟩
abbrev S1x512x1024 : Shape := ⟨3, ![1, 512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S64x512x64, .f32⟩
  | .hbm, ⟨1, _⟩ => ⟨S64x16384x3, .f32⟩
  | .hbm, ⟨2, _⟩ => ⟨S1024x64, .f32⟩
  | .hbm, ⟨3, _⟩ => ⟨S1024, .f32⟩
  | .hbm, ⟨4, _⟩ => ⟨S1024x3, .f32⟩
  | .hbm, ⟨5, _⟩ => ⟨S1024, .f32⟩
  | .hbm, ⟨6, _⟩ => ⟨S512x1024, .f32⟩
  | .hbm, ⟨7, _⟩ => ⟨S64x512x32x3, .f32⟩
  | .hbm, ⟨8, _⟩ => ⟨S_, .f32⟩
  | .hbm, ⟨9, _⟩ => ⟨S64x512x3, .f32⟩
  | .hbm, ⟨10, _⟩ => ⟨S_, .f32⟩
  | .hbm, ⟨11, _⟩ => ⟨S64x512x3, .f32⟩
  | .hbm, ⟨12, _⟩ => ⟨S64x512x3, .f32⟩
  | .hbm, ⟨13, _⟩ => ⟨S64x512x1024, .f32⟩
  | .hbm, ⟨14, _⟩ => ⟨S1x1x1024, .f32⟩
  | .hbm, ⟨15, _⟩ => ⟨S64x512x1024, .f32⟩
  | .hbm, ⟨16, _⟩ => ⟨S64x512x1024, .f32⟩
  | .hbm, ⟨17, _⟩ => ⟨S64x512x1024, .f32⟩
  | .hbm, ⟨18, _⟩ => ⟨S64x512x1024, .f32⟩
  | .hbm, ⟨19, _⟩ => ⟨S1x1x1024, .f32⟩
  | .hbm, ⟨20, _⟩ => ⟨S64x512x1024, .f32⟩
  | .hbm, ⟨21, _⟩ => ⟨S64x512x1024, .f32⟩
  | .hbm, ⟨22, _⟩ => ⟨S1x512x1024, .f32⟩
  | .hbm, ⟨23, _⟩ => ⟨S64x512x1024, .f32⟩
  | .hbm, ⟨24, _⟩ => ⟨S64x512x1024, .f32⟩
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  shapeCasts_S64x16384x3_S64x512x32x3 : S64x16384x3.ShapeCasts S64x512x32x3
  reducesTo_S64x512x32x3_S64x512x3_d2 : S64x512x32x3.ReducesTo [2] S64x512x3
  h_S_ : 0 < S_.numel
  bcast_S_S64x512x3 : S_.BroadcastsInDim S64x512x3 (![] : Fin 0 → Fin S64x512x3.rank)
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  bcast_S512x1024_S1x512x1024_1_2 : S512x1024.BroadcastsInDim S1x512x1024 (![1, 2] : Fin 2 → Fin S1x512x1024.rank)
  bcast_S1x512x1024_S64x512x1024_0_1_2 : S1x512x1024.BroadcastsInDim S64x512x1024 (![0, 1, 2] : Fin 3 → Fin S64x512x1024.rank)
  dot_S64x512x64_S1024x64_S64x512x1024_2_1_01_0_n_n_wf : DotDims.WF S64x512x64 S1024x64 S64x512x1024 [2] [1] [0, 1] [0] [] []
  dot_S64x512x3_S1024x3_S64x512x1024_2_1_01_0_n_n_wf : DotDims.WF S64x512x3 S1024x3 S64x512x1024 [2] [1] [0, 1] [0] [] []

variable [Facts₀]

def dot_S64x512x64_S1024x64_S64x512x1024_2_1_01_0_n_n : DotDims S64x512x64 S1024x64 S64x512x1024 where
  lhsContracting := [2]
  rhsContracting := [1]
  lhsNonContracting := [0, 1]
  rhsNonContracting := [0]
  lhsBatch := []
  rhsBatch := []
  wf := dot_S64x512x64_S1024x64_S64x512x1024_2_1_01_0_n_n_wf
def dot_S64x512x3_S1024x3_S64x512x1024_2_1_01_0_n_n : DotDims S64x512x3 S1024x3 S64x512x1024 where
  lhsContracting := [2]
  rhsContracting := [1]
  lhsNonContracting := [0, 1]
  rhsNonContracting := [0]
  lhsBatch := []
  rhsBatch := []
  wf := dot_S64x512x3_S1024x3_S64x512x1024_2_1_01_0_n_n_wf

class Facts : Prop extends Facts₀ where

variable [Facts]
-- ==== Proof.KernelBlock.lean ====
/-
  What one grid step of the kernel computes, entry by entry.

  A step holds two batch rows at once: a [2, 512, 64] block of patches and a [2, 512, 96] block of flattened
  segment chunks, both viewed as 1024 = 2·512 rows, are multiplied into the [64, 1024] and [96, 1024] weight
  matrices, the two products are added, the sum is viewed again as [2, 512, 1024], and the [512, 1024] additive
  table is added to each of the two batch rows. Over the extended reals the two changes of float format on the
  way into the products are the identity and a product into a zero accumulator is the plain sum of products, so
  entry (a, r, d) of the result is

      (∑ p < 64, patches(a, r, p) · wlin(p, d)) + (∑ q < 96, seg(a, r, q) · wseg(q, d)) + table(r, d).
-/
import proofs.«110487_j47596827574387_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen

/-- Row `a·512 + r` of the 1024 rows a step works on: row `r` of batch row `a`. -/
abbrev row (a : Fin 2) (r : Fin 512) : Fin 1024 := ⟨a.val * 512 + r.val, by have := a.isLt; have := r.isLt; omega⟩

theorem lhs64_0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs64_1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs64_0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs64_1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a [1024, 64] matrix and a [64, 1024] matrix into a zero accumulator, at entry (R, d), is the sum
    over the 64 contracted positions of the products of the entries. -/
theorem matmul64_apply (l : FVec Ideal S1024x64 .bf16) (w : FVec Ideal S64x1024 .bf16) (R : Fin 1024) (d : Fin 1024) :
    matmul dot_S1024x64_S64x1024_S1024x1024_1_0_0_1_n_n none l w (constant S1024x1024 .f32 0x00000000#32) (ix2 R d)
      = ∑ p : Fin 64, l (ix2 R p) * w (ix2 p d) := by
  show FloatOps.matmul dot_S1024x64_S64x1024_S1024x1024_1_0_0_1_n_n none l w (constant S1024x1024 .f32 0x00000000#32) (ix2 R d) = _
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 R d) ((contrEquiv1 dot_S1024x64_S64x1024_S1024x1024_1_0_0_1_n_n 64 rfl rfl).symm k) = ix2 R k :=
    funext fun a => Fin.ext (by
      match a with
      | ⟨0, _⟩ => exact lhs64_0 _ _
      | ⟨1, _⟩ => exact (lhs64_1 _ _).trans hk)
  have er : dot_S1024x64_S64x1024_S1024x1024_1_0_0_1_n_n.rhsIdx (ix2 R d) ((contrEquiv1 dot_S1024x64_S64x1024_S1024x1024_1_0_0_1_n_n 64 rfl rfl).symm k) = ix2 k d :=
    funext fun a => Fin.ext (by
      match a with
      | ⟨0, _⟩ => exact (rhs64_0 _ _).trans hk
      | ⟨1, _⟩ => exact rhs64_1 _ _)
  rw [el, er]

theorem lhs96_0 (i : S1024x1024.Idx) (q : dot_S1024x96_S96x1024_S1024x1024_1_0_0_1_n_n.contr.Idx) : (dot_S1024x96_S96x1024_S1024x1024_1_0_0_1_n_n.lhsIdx i q 0).val = (i 0).val := by
  unfold DotDims.lhsIdx
  rw [dif_neg (show ¬(0 : Fin S1024x96.rank) ∈ dot_S1024x96_S96x1024_S1024x1024_1_0_0_1_n_n.lhsBatch by decide), dif_pos (show (0 : Fin S1024x96.rank) ∈ dot_S1024x96_S96x1024_S1024x1024_1_0_0_1_n_n.lhsNonContracting by decide)]
  rfl
theorem lhs96_1 (i : S1024x1024.Idx) (q : dot_S1024x96_S96x1024_S1024x1024_1_0_0_1_n_n.contr.Idx) : (dot_S1024x96_S96x1024_S1024x1024_1_0_0_1_n_n.lhsIdx i q 1).val = (q ⟨0, by decide⟩).val :=
  dot_S1024x96_S96x1024_S1024x1024_1_0_0_1_n_n.lhsIdx_val_of_single rfl i q
theorem rhs96_0 (i : S1024x1024.Idx) (q : dot_S1024x96_S96x1024_S1024x1024_1_0_0_1_n_n.contr.Idx) : (dot_S1024x96_S96x1024_S1024x1024_1_0_0_1_n_n.rhsIdx i q 0).val = (q ⟨0, by decide⟩).val :=
  dot_S1024x96_S96x1024_S1024x1024_1_0_0_1_n_n.rhsIdx_val_of_single rfl i q
theorem rhs96_1 (i : S1024x1024.Idx) (q : dot_S1024x96_S96x1024_S1024x1024_1_0_0_1_n_n.contr.Idx) : (dot_S1024x96_S96x1024_S1024x1024_1_0_0_1_n_n.rhsIdx i q 1).val = (i 1).val := by
  unfold DotDims.rhsIdx
  rw [dif_neg (show ¬(1 : Fin S96x1024.rank) ∈ dot_S1024x96_S96x1024_S1024x1024_1_0_0_1_n_n.rhsBatch by decide), dif_pos (show (1 : Fin S96x1024.rank) ∈ dot_S1024x96_S96x1024_S1024x1024_1_0_0_1_n_n.rhsNonContracting by decide)]
  rfl

/-- The product of a [1024, 96] matrix and a [96, 1024] matrix into a zero accumulator, at entry (R, d), is the sum
    over the 96 contracted positions of the products of the entries. -/
theorem matmul96_apply (l : FVec Ideal S1024x96 .bf16) (w : FVec Ideal S96x1024 .bf16) (R : Fin 1024) (d : Fin 1024) :
    matmul dot_S1024x96_S96x1024_S1024x1024_1_0_0_1_n_n none l w (constant S1024x1024 .f32 0x00000000#32) (ix2 R d)
      = ∑ p : Fin 96, l (ix2 R p) * w (ix2 p d) := by
  show FloatOps.matmul dot_S1024x96_S96x1024_S1024x1024_1_0_0_1_n_n none l w (constant S1024x1024 .f32 0x00000000#32) (ix2 R d) = _
  rw [Ideal.matmul_constant_zero_apply, ← Equiv.sum_comp (contrEquiv1 dot_S1024x96_S96x1024_S1024x1024_1_0_0_1_n_n 96 rfl rfl).symm]
  refine Finset.sum_congr rfl fun k _ => ?_
  have hk := contrEquiv1_symm_val dot_S1024x96_S96x1024_S1024x1024_1_0_0_1_n_n 96 rfl rfl k
  have el : dot_S1024x96_S96x1024_S1024x1024_1_0_0_1_n_n.lhsIdx (ix2 R d) ((contrEquiv1 dot_S1024x96_S96x1024_S1024x1024_1_0_0_1_n_n 96 rfl rfl).symm k) = ix2 R k :=
    funext fun a => Fin.ext (by
      match a with
      | ⟨0, _⟩ => exact lhs96_0 _ _
      | ⟨1, _⟩ => exact (lhs96_1 _ _).trans hk)
  have er : dot_S1024x96_S96x1024_S1024x1024_1_0_0_1_n_n.rhsIdx (ix2 R d) ((contrEquiv1 dot_S1024x96_S96x1024_S1024x1024_1_0_0_1_n_n 96 rfl rfl).symm k) = ix2 k d :=
    funext fun a => Fin.ext (by
      match a with
      | ⟨0, _⟩ => exact (rhs96_0 _ _).trans hk
      | ⟨1, _⟩ => exact rhs96_1 _ _)
  rw [el, er]

/-- Entry (a, r, d) of what a step stores, from the five blocks it loads: the two row-by-column sums plus the
    additive table's entry (r, d). Viewing [2, 512, n] as [1024, n] sends (a, r, ·) to row `a·512 + r`. -/
theorem pay_apply (x0 : Vec Ideal S2x512x64 .f32) (x1 : Vec Ideal S2x512x96 .f32) (x2 : Vec Ideal S64x1024 .f32)
    (x3 : Vec Ideal S96x1024 .f32) (x4 : Vec Ideal S512x1024 .f32) (a : Fin 2) (r : Fin 512) (d : Fin 1024) :
    k0_pay1 (F := Ideal) x0 x1 x2 x3 x4 (ix3 a r d)
      = ((∑ p : Fin 64, x0 (ix3 a r p) * x2 (ix2 p d)) + (∑ q : Fin 96, x1 (ix3 a r q) * x3 (ix2 q d))) + x4 (ix2 r d) := by
  have ha : a.val < 2 := a.isLt
  have hr : r.val < 512 := r.isLt
  unfold k0_pay1
  rw [addf_apply]
  refine congrArg₂ (· + ·) ?_ ?_
  · refine (shapeCast_apply _ shapeCasts_S1024x1024_S2x512x1024 (ix3 a r d) (ix2 (row a r) d) ?_).trans ?_
    · rw [Shape.rowMajor_val_two, Shape.rowMajor_val_three]; rfl
    rw [addf_apply]
    refine congrArg₂ (· + ·) ?_ ?_
    · refine (matmul64_apply _ _ (row a r) d).trans (Finset.sum_congr rfl fun p _ => ?_)
      refine congrArg₂ (· * ·) ?_ ?_
      · show shapeCast S1024x64 x0 shapeCasts_S2x512x64_S1024x64 (ix2 (row a r) p) = x0 (ix3 a r p)
        refine shapeCast_apply x0 shapeCasts_S2x512x64_S1024x64 (ix2 (row a r) p) (ix3 a r p) ?_
        rw [Shape.rowMajor_val_two, Shape.rowMajor_val_three]; rfl
      · show shapeCast S64x1024 x2 shapeCasts_S64x1024_S64x1024 (ix2 p d) = x2 (ix2 p d)
        exact congrFun (shapeCast_self x2 shapeCasts_S64x1024_S64x1024) (ix2 p d)
    · refine (matmul96_apply _ _ (row a r) d).trans (Finset.sum_congr rfl fun q _ => ?_)
      refine congrArg₂ (· * ·) ?_ ?_
      · show shapeCast S1024x96 (shapeCast S2x512x96 x1 shapeCasts_S2x512x96_S2x512x96) shapeCasts_S2x512x96_S1024x96 (ix2 (row a r) q) = x1 (ix3 a r q)
        refine (shapeCast_apply _ shapeCasts_S2x512x96_S1024x96 (ix2 (row a r) q) (ix3 a r q) ?_).trans ?_
        · rw [Shape.rowMajor_val_two, Shape.rowMajor_val_three]; rfl
        · exact congrFun (shapeCast_self x1 shapeCasts_S2x512x96_S2x512x96) (ix3 a r q)
      · show shapeCast S96x1024 x3 shapeCasts_S96x1024_S96x1024 (ix2 q d) = x3 (ix2 q d)
        exact congrFun (shapeCast_self x3 shapeCasts_S96x1024_S96x1024) (ix2 q d)
  · refine (broadcastTo_apply _ broadcasts_S1x512x1024_S2x512x1024 (ix3 a r d) (ix3 (0 : Fin 1) r d) ?_).trans ?_
    · intro b
      match b with
      | ⟨0, _⟩ => rfl
      | ⟨1, _⟩ => rfl
      | ⟨2, _⟩ => rfl
    refine (congrFun (shapeCast_self _ shapeCasts_S1x512x1024_S1x512x1024) (ix3 (0 : Fin 1) r d)).trans ?_
    refine (shapeCast_apply _ shapeCasts_S512x1024_S1x512x1024 (ix3 (0 : Fin 1) r d) (ix2 r d) ?_).trans ?_
    · rw [Shape.rowMajor_val_two, Shape.rowMajor_val_three]
      show r.val * 1024 + d.val = (0 * 512 + r.val) * 1024 + d.val
      omega
    exact congrFun (shapeCast_self x4 shapeCasts_S512x1024_S512x1024) (ix2 r d)

end Cert.KernelIdeal.Block

end
-- ==== Proof.KernelArray.lean ====
/-
  The result array after the call, as one function of the arrays the call's windows read.

  The grid has 32 points; point `t` reads batch rows `2t` and `2t + 1` of the patches and of the flattened segments
  (blocks [2, 512, ·] at block index (t, 0, 0)), the two weight matrices and the additive table whole (block index
  (0, 0) at every point), and writes batch rows `2t`, `2t + 1` of the result. So entry (b, k, d) of the result is
  written by point `b / 2`, as entry (b % 2, k, d) of that point's block, and holds

      (∑ p < 64, P(b, k, p) · Wl(p, d)) + (∑ q < 96, Sg(b, k, q) · We(q, d)) + T(k, d)

  of the window arrays P, Sg, Wl, We, T; the 32 blocks tile the result, so the whole array is that function.
-/
import proofs.«110487_j47596827574387_2_alg».proof.Proof.Gen.KernelIdeal.Value
import proofs.«110487_j47596827574387_2_alg».proof.Proof.KernelBlock
import Idealize.ShloMosaic.Lib.Pipeline.Value
import Idealize.ShloMosaic.Lib.ValueIdx

noncomputable section

namespace Cert.KernelIdeal.Whole

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Block

/-- Entry (b, k, d) of the result, from the five window arrays. -/
def entry (P : S64x512x64.Idx → EReal) (Sg : S64x512x96.Idx → EReal) (Wl : S64x1024.Idx → EReal)
    (We : S96x1024.Idx → EReal) (T : S512x1024.Idx → EReal) (b : Fin 64) (k : Fin 512) (d : Fin 1024) : EReal :=
  ((∑ p : Fin 64, P (ix3 b k p) * Wl (ix2 p d)) + (∑ q : Fin 96, Sg (ix3 b k q) * We (ix2 q d))) + T (ix2 k d)

/-- The result array: `entry` at the index's three coordinates. -/
def G (P : S64x512x64.Idx → EReal) (Sg : S64x512x96.Idx → EReal) (Wl : S64x1024.Idx → EReal)
    (We : S96x1024.Idx → EReal) (T : S512x1024.Idx → EReal) : S64x512x1024.Idx → EReal :=
  fun i => entry P Sg Wl We T (i 0) (i 1) (i 2)

theorem G_apply (P : S64x512x64.Idx → EReal) (Sg : S64x512x96.Idx → EReal) (Wl : S64x1024.Idx → EReal)
    (We : S96x1024.Idx → EReal) (T : S512x1024.Idx → EReal) (b : Fin 64) (k : Fin 512) (d : Fin 1024) :
    G P Sg Wl We T (ix3 b k d) = entry P Sg Wl We T b k d := rfl

/-- A step's stored entry (a, r, d) is `entry` at (b, r, d) when the step's two batch-row blocks are rows of P and
    Sg at batch row `b`, and its other three blocks are the arrays Wl, We, T themselves. -/
theorem pay_eq_entry (x0 : Vec Ideal S2x512x64 .f32) (x1 : Vec Ideal S2x512x96 .f32) (x2 : Vec Ideal S64x1024 .f32)
    (x3 : Vec Ideal S96x1024 .f32) (x4 : Vec Ideal S512x1024 .f32)
    (P : S64x512x64.Idx → EReal) (Sg : S64x512x96.Idx → EReal) (Wl : S64x1024.Idx → EReal)
    (We : S96x1024.Idx → EReal) (T : S512x1024.Idx → EReal)
    (a : Fin 2) (r : Fin 512) (d : Fin 1024) (b : Fin 64)
    (h0 : ∀ p : Fin 64, x0 (ix3 a r p) = P (ix3 b r p)) (h1 : ∀ q : Fin 96, x1 (ix3 a r q) = Sg (ix3 b r q))
    (h2 : ∀ p : Fin 64, x2 (ix2 p d) = Wl (ix2 p d)) (h3 : ∀ q : Fin 96, x3 (ix2 q d) = We (ix2 q d))
    (h4 : x4 (ix2 r d) = T (ix2 r d)) :
    k0_pay1 (F := Ideal) x0 x1 x2 x3 x4 (ix3 a r d) = entry P Sg Wl We T b r d := by
  rw [pay_apply]
  unfold entry
  rw [h4]
  refine congrArg₂ (· + ·) (congrArg₂ (· + ·) ?_ ?_) rfl
  · exact Finset.sum_congr rfl fun p _ => by rw [h0 p, h2 p]
  · exact Finset.sum_congr rfl fun q _ => by rw [h1 q, h3 q]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed block-index maps, decided over the 32 grid points: the two batch-row windows and the result
    window sit at block (t, 0, 0), the three whole-array windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The window arrays as the region finds them. -/
abbrev P (c : Dev nD) : S64x512x64.Idx → EReal := V m c main_arg0
abbrev Sg (c : Dev nD) : S64x512x96.Idx → EReal := V m c main_v0
abbrev Wl (c : Dev nD) : S64x1024.Idx → EReal := V m c main_v7
abbrev We (c : Dev nD) : S96x1024.Idx → EReal := V m c main_v6
abbrev T (c : Dev nD) : S512x1024.Idx → EReal := V m c main_v13

/-- What point `t` writes back is block `t` of `G` of the window arrays. -/
theorem flushed_eq (c : Dev nD) (t : Fin cfg0.N) :
    (dats m 0 c).flushed 5 t
      = ((cfg0.win 5).blk t).view.read (Elt Ideal) (G (P m c) (Sg m c) (Wl m c) (We m c) (T m c)) := by
  have hN : cfg0.N = 32 := N_0
  have ht : t.val < 32 := hN ▸ t.isLt
  rw [Value.flushed5]
  unfold out0_5
  rw [View.canon_unit_zero hz3]
  simp only [View.ld_unit_zero (S := S2x512x64) hz3, View.ld_unit_zero (S := S2x512x96) hz3,
    View.ld_unit_zero (S := S64x1024) hz2, View.ld_unit_zero (S := S96x1024) hz2, View.ld_unit_zero (S := S512x1024) hz2]
  obtain ⟨e00, e01, e02, e10, e11, e12, e20, e21, e30, e31, e40, e41, e50, e51, e52⟩ := idx_facts t
  funext j
  obtain ⟨a, r, d, rfl⟩ : ∃ (a : Fin 2) (r : Fin 512) (d : Fin 1024), j = ix3 a r d := ⟨j 0, j 1, j 2, eq_ix3 j⟩
  have ha : a.val < 2 := a.isLt
  have hr : r.val < 512 := r.isLt
  have hd : d.val < 1024 := d.isLt
  show k0_pay1 (F := Ideal) (iblk m c 0 t) (iblk m c 1 t) (iblk m c 2 t) (iblk m c 3 t) (iblk m c 4 t) (ix3 a r d)
      = G (P m c) (Sg m c) (Wl m c) (We m c) (T m c) (((cfg0.win 5).blk t).view.emb (ix3 a r d))
  have hemb : ((cfg0.win 5).blk t).view.emb (ix3 a r d) = ix3 (⟨t.val * 2 + a.val, by omega⟩ : Fin 64) r d := by
    funext ax; apply Fin.ext
    match ax with
    | ⟨0, _⟩ => show win0_5.index t (0 : Fin 3) * 2 + 1 * a.val = t.val * 2 + a.val; rw [e50]; omega
    | ⟨1, _⟩ => show win0_5.index t (1 : Fin 3) * 512 + 1 * r.val = r.val; rw [e51]; omega
    | ⟨2, _⟩ => show win0_5.index t (2 : Fin 3) * 1024 + 1 * d.val = d.val; rw [e52]; omega
  rw [hemb, G_apply]
  refine pay_eq_entry (iblk m c 0 t) (iblk m c 1 t) (iblk m c 2 t) (iblk m c 3 t) (iblk m c 4 t)
    (P m c) (Sg m c) (Wl m c) (We m c) (T m c) a r d ⟨t.val * 2 + a.val, by omega⟩ ?_ ?_ ?_ ?_ ?_
  · intro p
    have hp : p.val < 64 := p.isLt
    show V m c main_arg0 (((cfg0.win 0).blk t).view.emb (ix3 a r p)) = V m c main_arg0 (ix3 (⟨t.val * 2 + a.val, by omega⟩ : Fin 64) r p)
    refine congrArg (V m c main_arg0) (funext fun ax => Fin.ext ?_)
    match ax with
    | ⟨0, _⟩ => show win0_0.index t (0 : Fin 3) * 2 + 1 * a.val = t.val * 2 + a.val; rw [e00]; omega
    | ⟨1, _⟩ => show win0_0.index t (1 : Fin 3) * 512 + 1 * r.val = r.val; rw [e01]; omega
    | ⟨2, _⟩ => show win0_0.index t (2 : Fin 3) * 64 + 1 * p.val = p.val; rw [e02]; omega
  · intro q
    have hq : q.val < 96 := q.isLt
    show V m c main_v0 (((cfg0.win 1).blk t).view.emb (ix3 a r q)) = V m c main_v0 (ix3 (⟨t.val * 2 + a.val, by omega⟩ : Fin 64) r q)
    refine congrArg (V m c main_v0) (funext fun ax => Fin.ext ?_)
    match ax with
    | ⟨0, _⟩ => show win0_1.index t (0 : Fin 3) * 2 + 1 * a.val = t.val * 2 + a.val; rw [e10]; omega
    | ⟨1, _⟩ => show win0_1.index t (1 : Fin 3) * 512 + 1 * r.val = r.val; rw [e11]; omega
    | ⟨2, _⟩ => show win0_1.index t (2 : Fin 3) * 96 + 1 * q.val = q.val; rw [e12]; omega
  · intro p
    have hp : p.val < 64 := p.isLt
    show V m c main_v7 (((cfg0.win 2).blk t).view.emb (ix2 p d)) = V m c main_v7 (ix2 p d)
    refine congrArg (V m c main_v7) (funext fun ax => Fin.ext ?_)
    match ax with
    | ⟨0, _⟩ => show win0_2.index t (0 : Fin 2) * 64 + 1 * p.val = p.val; rw [e20]; omega
    | ⟨1, _⟩ => show win0_2.index t (1 : Fin 2) * 1024 + 1 * d.val = d.val; rw [e21]; omega
  · intro q
    have hq : q.val < 96 := q.isLt
    show V m c main_v6 (((cfg0.win 3).blk t).view.emb (ix2 q d)) = V m c main_v6 (ix2 q d)
    refine congrArg (V m c main_v6) (funext fun ax => Fin.ext ?_)
    match ax with
    | ⟨0, _⟩ => show win0_3.index t (0 : Fin 2) * 96 + 1 * q.val = q.val; rw [e30]; omega
    | ⟨1, _⟩ => show win0_3.index t (1 : Fin 2) * 1024 + 1 * d.val = d.val; rw [e31]; omega
  · show V m c main_v13 (((cfg0.win 4).blk t).view.emb (ix2 r d)) = V m c main_v13 (ix2 r d)
    refine congrArg (V m c main_v13) (funext fun ax => Fin.ext ?_)
    match ax with
    | ⟨0, _⟩ => show win0_4.index t (0 : Fin 2) * 512 + 1 * r.val = r.val; rw [e40]; omega
    | ⟨1, _⟩ => show win0_4.index t (1 : Fin 2) * 1024 + 1 * d.val = d.val; rw [e41]; omega

/-- An index of the result is in point `t`'s block iff each coordinate is in the block's range on its axis. -/
theorem mem_blk (t : Fin cfg0.N) (i : S64x512x1024.Idx) :
    i ∈ ((cfg0.win 5).blk t).view.set ↔ ∀ a : Fin 3, win0_5.index t a * S2x512x1024.size a ≤ (i a).val
      ∧ (i a).val < win0_5.index t a * S2x512x1024.size a + S2x512x1024.size a := by
  show i ∈ ((View.whole main_v14).slice (win0_5.rect t)).set ↔ _
  rw [View.set_slice_whole, Rect.mem_set_unit]
  exact Iff.rfl

/-- Every index of the result lies in the block of the point `b / 2`, `b` its batch row. -/
theorem cover (i : S64x512x1024.Idx) :
    ∃ t : Fin cfg0.N, (cfg0.win 5).flush t = true ∧ i ∈ ((cfg0.win 5).blk t).view.set := by
  have hN : cfg0.N = 32 := N_0
  have h0 : (i 0).val < 64 := (i 0).isLt
  have h1 : (i 1).val < 512 := (i 1).isLt
  have h2 : (i 2).val < 1024 := (i 2).isLt
  have hlt : (i 0).val / 2 < cfg0.N := by rw [hN]; omega
  refine ⟨⟨(i 0).val / 2, hlt⟩, flush0_5 _, ?_⟩
  obtain ⟨-, -, -, -, -, -, -, -, -, -, -, -, e50, e51, e52⟩ := idx_facts ⟨(i 0).val / 2, hlt⟩
  rw [mem_blk]
  intro a
  match a with
  | ⟨0, _⟩ =>
    show win0_5.index ⟨(i 0).val / 2, hlt⟩ (0 : Fin 3) * 2 ≤ (i 0).val ∧ (i 0).val < win0_5.index ⟨(i 0).val / 2, hlt⟩ (0 : Fin 3) * 2 + 2
    rw [e50]; show (i 0).val / 2 * 2 ≤ (i 0).val ∧ (i 0).val < (i 0).val / 2 * 2 + 2; omega
  | ⟨1, _⟩ =>
    show win0_5.index ⟨(i 0).val / 2, hlt⟩ (1 : Fin 3) * 512 ≤ (i 1).val ∧ (i 1).val < win0_5.index ⟨(i 0).val / 2, hlt⟩ (1 : Fin 3) * 512 + 512
    rw [e51]; omega
  | ⟨2, _⟩ =>
    show win0_5.index ⟨(i 0).val / 2, hlt⟩ (2 : Fin 3) * 1024 ≤ (i 2).val ∧ (i 2).val < win0_5.index ⟨(i 0).val / 2, hlt⟩ (2 : Fin 3) * 1024 + 1024
    rw [e52]; omega

/-- The result array after the run is `G` of the window arrays. -/
theorem final (c : Dev nD) :
    (dats m 0 c).arrAt 5 cfg0.N = G (P m c) (Sg m c) (Wl m c) (We m c) (T m c) :=
  (dats m 0 c).arrAt_eq_of_cover 5 (G (P m c) (Sg m c) (Wl m c) (We m c) (T m c)) (fun t _ => flushed_eq m c t) cover

/-- The run, read: the result array at `G` of the window arrays, the arguments unchanged. -/
theorem run : θ_run defs (onTc (τ := τ) (main (F := Ideal))) ⟨m, fun _ => 0, ρ⟩ fun r => ∀ c : Dev nD,
      r.2.mem ((c : Thread nD τ).loc main_v14) = G (P m c) (Sg m c) (Wl m c) (We m c) (T m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.HostPrefix.lean ====
/-
  What the host operations in front of the call leave in the arrays the call's windows read, entry by entry.

  * the segments [64, 16384, 3] viewed as [64, 512, 96]: row `k`, column `q` of batch `b` is segment row
    `32·k + q / 3`, coordinate `q % 3` (a row of the view is 32 consecutive segment rows laid end to end);
  * the [64, 1024] matrix is the transpose of the linear weights;
  * the [96, 1024] matrix: the segment weights [1024, 3] repeated 32 times along their second axis, every entry
    divided by 32, then transposed — entry (q, d) is `W_seg(d, q % 3) / 32`;
  * the additive table [512, 1024]: `(pos(k, d) + b_lin(d)) + b_seg(d)`.
-/
import proofs.«110487_j47596827574387_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Prefix

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- Segment row `32·k + s`. -/
abbrev segRow (k : Fin 512) (s : Fin 32) : Fin 16384 := ⟨k.val * 32 + s.val, by have := k.isLt; have := s.isLt; omega⟩
/-- The chunk position `q / 3` of a flat column `q < 96`. -/
abbrev qs (q : Fin 96) : Fin 32 := ⟨q.val / 3, by have := q.isLt; omega⟩
/-- The coordinate `q % 3` of a flat column `q < 96`. -/
abbrev qj (q : Fin 96) : Fin 3 := ⟨q.val % 3, by omega⟩

/-! ## The seven arguments as launched, as functions of an index -/

abbrev patches : S64x512x64.Idx → EReal := m ((c : Thread nD τ).loc main_arg0)
abbrev segments : S64x16384x3.Idx → EReal := m ((c : Thread nD τ).loc main_arg1)
abbrev wLin : S1024x64.Idx → EReal := m ((c : Thread nD τ).loc main_arg2)
abbrev bLin : S1024.Idx → EReal := m ((c : Thread nD τ).loc main_arg3)
abbrev wSeg : S1024x3.Idx → EReal := m ((c : Thread nD τ).loc main_arg4)
abbrev bSeg : S1024.Idx → EReal := m ((c : Thread nD τ).loc main_arg5)
abbrev pos : S512x1024.Idx → EReal := m ((c : Thread nD τ).loc main_arg6)

/-! ## The arrays as terms of the arguments -/

theorem V_v0 : (V m c main_v0 : S64x512x96.Idx → EReal)
    = shapeCast S64x512x96 (segments m c) shapeCasts_S64x16384x3_S64x512x96 := by
  dsimp only [Gen.V, Gen.hostOps0]; after_results <;> rfl

theorem V_v7 : (V m c main_v7 : S64x1024.Idx → EReal)
    = transpose S64x1024 [1, 0] (wLin m c) transposes_S1024x64_S64x1024_1_0 := by
  dsimp only [Gen.V, Gen.hostOps0]; after_results <;> rfl

theorem V_v6 : (V m c main_v6 : S96x1024.Idx → EReal)
    = transpose S96x1024 [1, 0]
        (Host.divf
          (shapeCast S1024x96
            (broadcastInDim S1x1024x32x3 ![0, 1, 2, 3] bcast_S1x1024x1x3_S1x1024x32x3_0_1_2_3
              (shapeCast S1x1024x1x3 (wSeg m c) shapeCasts_S1024x3_S1x1024x1x3))
            shapeCasts_S1x1024x32x3_S1024x96)
          (broadcastInDim S1024x96 ![] bcast_S_S1024x96 (constant (F := Ideal) S_ .f32 0x42000000#32)))
        transposes_S1024x96_S96x1024_1_0 := by
  dsimp only [Gen.V, Gen.hostOps0]; after_results <;> rfl

theorem V_v13 : (V m c main_v13 : S512x1024.Idx → EReal)
    = addf (F := Ideal) (s := S512x1024) (φ := .f32)
        (addf (F := Ideal) (s := S512x1024) (φ := .f32) (pos m c)
          (broadcastInDim S512x1024 ![0, 1] bcast_S1x1024_S512x1024_0_1
            (shapeCast S1x1024 (bLin m c) shapeCasts_S1024_S1x1024)))
        (broadcastInDim S512x1024 ![0, 1] bcast_S1x1024_S512x1024_0_1
          (shapeCast S1x1024 (bSeg m c) shapeCasts_S1024_S1x1024)) := by
  dsimp only [Gen.V, Gen.hostOps0]; after_results <;> rfl

/-! ## The same, at an index -/

theorem V_v0_apply (b : Fin 64) (k : Fin 512) (q : Fin 96) :
    (V m c main_v0 : S64x512x96.Idx → EReal) (ix3 b k q)
      = segments m c (ix3 b (segRow k (qs q)) (qj q)) := by
  have hb : b.val < 64 := b.isLt
  have hk : k.val < 512 := k.isLt
  have hq : q.val < 96 := q.isLt
  rw [V_v0]
  refine shapeCast_apply _ shapeCasts_S64x16384x3_S64x512x96 (ix3 b k q) (ix3 b (segRow k (qs q)) (qj q)) ?_
  rw [Shape.rowMajor_val_three, Shape.rowMajor_val_three]
  show (b.val * 16384 + (k.val * 32 + q.val / 3)) * 3 + q.val % 3 = (b.val * 512 + k.val) * 96 + q.val
  omega

theorem V_v7_apply (p : Fin 64) (d : Fin 1024) :
    (V m c main_v7 : S64x1024.Idx → EReal) (ix2 p d) = wLin m c (ix2 d p) := by
  rw [V_v7]
  refine transpose_apply [1, 0] _ transposes_S1024x64_S64x1024_1_0 (ix2 p d) (ix2 d p) ?_
  intro b
  match b with
  | ⟨0, _⟩ => rfl
  | ⟨1, _⟩ => rfl

theorem V_v6_apply (q : Fin 96) (d : Fin 1024) :
    (V m c main_v6 : S96x1024.Idx → EReal) (ix2 q d)
      = Ideal.div (wSeg m c (ix2 d (qj q))) (Ideal.ofBits .f32 0x42000000#32) := by
  have hd : d.val < 1024 := d.isLt
  have hq : q.val < 96 := q.isLt
  rw [V_v6]
  refine (transpose_apply [1, 0] _ transposes_S1024x96_S96x1024_1_0 (ix2 q d) (ix2 d q) ?_).trans ?_
  · intro b
    match b with
    | ⟨0, _⟩ => rfl
    | ⟨1, _⟩ => rfl
  show Ideal.div _ _ = _
  refine congrArg₂ Ideal.div ?_ ?_
  · refine (shapeCast_apply _ shapeCasts_S1x1024x32x3_S1024x96 (ix2 d q) (ix4 (0 : Fin 1) d (qs q) (qj q)) ?_).trans ?_
    · rw [Shape.rowMajor_val_four, Shape.rowMajor_val_two]
      show ((0 * 1024 + d.val) * 32 + q.val / 3) * 3 + q.val % 3 = d.val * 96 + q.val
      omega
    refine (broadcastInDim_apply ![0, 1, 2, 3] bcast_S1x1024x1x3_S1x1024x32x3_0_1_2_3 _ (ix4 (0 : Fin 1) d (qs q) (qj q))
      (ix4 (0 : Fin 1) d (0 : Fin 1) (qj q)) ?_).trans ?_
    · intro a
      match a with
      | ⟨0, _⟩ => rfl
      | ⟨1, _⟩ => rfl
      | ⟨2, _⟩ => rfl
      | ⟨3, _⟩ => rfl
    refine shapeCast_apply _ shapeCasts_S1024x3_S1x1024x1x3 (ix4 (0 : Fin 1) d (0 : Fin 1) (qj q)) (ix2 d (qj q)) ?_
    rw [Shape.rowMajor_val_four, Shape.rowMajor_val_two]
    show d.val * 3 + q.val % 3 = ((0 * 1024 + d.val) * 1 + 0) * 3 + q.val % 3
    omega
  · exact broadcastInDim_apply ![] bcast_S_S1024x96 _ (ix2 d q) ix0 (fun a => a.elim0)

theorem V_v13_apply (k : Fin 512) (d : Fin 1024) :
    (V m c main_v13 : S512x1024.Idx → EReal) (ix2 k d)
      = (pos m c (ix2 k d) + bLin m c (ix1 d)) + bSeg m c (ix1 d) := by
  have hd : d.val < 1024 := d.isLt
  have bias : ∀ x : S1024.Idx → EReal,
      broadcastInDim S512x1024 ![0, 1] bcast_S1x1024_S512x1024_0_1 (shapeCast S1x1024 x shapeCasts_S1024_S1x1024) (ix2 k d) = x (ix1 d) := by
    intro x
    refine (broadcastInDim_apply ![0, 1] bcast_S1x1024_S512x1024_0_1 _ (ix2 k d) (ix2 (0 : Fin 1) d) ?_).trans ?_
    · intro a
      match a with
      | ⟨0, _⟩ => rfl
      | ⟨1, _⟩ => rfl
    refine shapeCast_apply x shapeCasts_S1024_S1x1024 (ix2 (0 : Fin 1) d) (ix1 d) ?_
    rw [Shape.rowMajor_val_one, Shape.rowMajor_val_two]
    show d.val = 0 * 1024 + d.val
    omega
  rw [V_v13]
  show (pos m c (ix2 k d) + _) + _ = _
  rw [bias, bias]

end Cert.KernelIdeal.Prefix

end
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.FiniteArgs.lean ====
/-
  Every float argument is finite, from the precondition.

  The generated precondition `Cert.Pre_finite_inputs.fn` computes, for each of the seven arrays `x`,
  the conjunction over all elements of `|x i| < +∞` (an absolute value, a comparison against the broadcast
  pattern of `+∞`, and a reduction by `and` over all axes from the constant 1), and joins the seven results
  by `and`. On the extended reals `|x| = max x (-x)` is `⊤` at both `⊥` and `⊤`, so `|x| < ⊤` holds exactly
  when `x` is the coercion of a real number.
-/
import proofs.«110487_j47596827574387_2_alg».proof.Pre_finite_inputs
import proofs.«110487_j47596827574387_2_alg».proof.Proof.LibERealMatmul
import Idealize.ShloMosaic.PureOps.Ideal
import Idealize.ShloMosaic.PureOps.Ideal.Laws
import Idealize.ShloMosaic.Lib.ReduceAll
import Idealize.ShloMosaic.Lib.ValueIdx

noncomputable section

namespace Cert.FiniteArgs

open Idealize.ShloMosaic
open Cert.LibERealMatmul

/-- The f32 pattern `0x7F800000` (sign 0, exponent all ones, significand 0) denotes `+∞`. -/
theorem ofBits_inf : Ideal.ofBits .f32 0x7F800000#32 = ⊤ := by
  simp [Ideal.ofBits, Ideal.ieee]

/-- The rank-0 shape has exactly one index. -/
instance subsingleton_scalarIdx : Subsingleton (⟨0, ![]⟩ : Shape).Idx :=
  ⟨fun a b => funext fun d => d.elim0⟩

/-- One element: if `|x| < ⊤` (with `|x| = max x (-x)`) then `x` is a real number. At `⊥` and at `⊤` the
    absolute value is `⊤`, which is not below `⊤`. -/
theorem isFin_of_abs_lt_top (x : EReal) (h : Ideal.cmp .olt (max x (-x)) ⊤ = 1#1) : IsFin x := by
  induction x using EReal.rec with
  | bot => simp [Ideal.cmp] at h
  | top => simp [Ideal.cmp] at h
  | coe r => exact isFin_coe r

/-- One array of any shape `S`: if the reduction by `and` over all axes of `|x| < +∞` is 1, every element of
    `x` is a real number. -/
theorem all_isFin {S : Shape} {axes : List (Fin S.rank)}
    (hb : (⟨0, ![]⟩ : Shape).BroadcastsInDim S (![] : Fin 0 → Fin S.rank))
    (hr : S.ReducesTo axes ⟨0, ![]⟩) (hu : 0 < (⟨0, ![]⟩ : Shape).numel) (x : FVec Ideal S .f32)
    (j : (⟨0, ![]⟩ : Shape).Idx)
    (e : Host.reduce IntOp.andi
          (cmpf .olt (Host.absf x) (broadcastInDim S ![] hb (constant (⟨0, ![]⟩ : Shape) .f32 0x7F800000#32)))
          (constantI (⟨0, ![]⟩ : Shape) 1 1#1) hr hu j = 1#1) :
    ∀ i, IsFin (x i) := by
  intro i
  have hi := Host.reduce_andi_all _ _ hr hu j e i
  apply isFin_of_abs_lt_top
  rw [← ofBits_inf]
  exact hi

/-- Every element of each of the seven arguments is a real number, from the precondition. -/
theorem args_finite [Cert.Pre_finite_inputs.Facts]
    (x0 : FVec Ideal Cert.Pre_finite_inputs.S64x512x64 .f32)
    (x1 : FVec Ideal Cert.Pre_finite_inputs.S64x16384x3 .f32)
    (x2 : FVec Ideal Cert.Pre_finite_inputs.S1024x64 .f32)
    (x3 : FVec Ideal Cert.Pre_finite_inputs.S1024 .f32)
    (x4 : FVec Ideal Cert.Pre_finite_inputs.S1024x3 .f32)
    (x5 : FVec Ideal Cert.Pre_finite_inputs.S1024 .f32)
    (x6 : FVec Ideal Cert.Pre_finite_inputs.S512x1024 .f32)
    (h : Cert.Pre_finite_inputs.fn (F := Ideal) x0 x1 x2 x3 x4 x5 x6 = fun _ => 1#1) :
    (∀ i, IsFin (x0 i)) ∧ (∀ i, IsFin (x1 i)) ∧ (∀ i, IsFin (x2 i)) ∧ (∀ i, IsFin (x3 i)) ∧
      (∀ i, IsFin (x4 i)) ∧ (∀ i, IsFin (x5 i)) ∧ (∀ i, IsFin (x6 i)) := by
  have e := congrFun h ValueIdx.ix0
  dsimp only [Cert.Pre_finite_inputs.fn, Cert.Pre_finite_inputs.fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_isFin _ _ _ x0 _ h0, all_isFin _ _ _ x1 _ h1, all_isFin _ _ _ x2 _ h2, all_isFin _ _ _ x3 _ h3,
    all_isFin _ _ _ x4 _ h4, all_isFin _ _ _ x5 _ h5, all_isFin _ _ _ x6 _ h6⟩

end Cert.FiniteArgs

end
-- ==== Proof.SegFold.lean ====
import Mathlib
import Idealize.ShloMosaic.PureOps.Ideal
import Idealize.ShloMosaic.PureOps.Ideal.Laws
import proofs.«110487_j47596827574387_2_alg».proof.Proof.LibERealMatmul

/-!
# Averaging over segments commutes with the weighted sum

A row of `96 = 32 · 3` entries is indexed by a flat index `q = 3 · s + j` with segment
`s < 32` and position `j < 3`.  Multiplying each entry by the weight `W j / 32` and summing
over the whole row gives the same value as first averaging over the segments,
`(0 + ∑ s, S s j) / 32`, and then taking the weighted sum over `j`.  Multiplication does not
distribute over addition at the infinities of `EReal`, so every entry and every weight is
assumed finite; the identity is then the real one, transported along the coercion.
-/

noncomputable section

namespace Cert.SegFold

open Cert.LibERealMatmul Idealize.ShloMosaic

/-- The pattern `0x42000000` is the single-precision number `32.0`: sign `0`, biased
exponent `132 = 127 + 5`, zero fraction, so it denotes `2 ^ 5 = 32`. -/
theorem ofBits_32 : Ideal.ofBits .f32 0x42000000#32 = ((32 : ℝ) : EReal) := by
  simp [Ideal.ofBits, Ideal.ieee, -EReal.coe_mul]; norm_num

/-- Re-indexing a real sum over the flat range `Fin 96` as a double sum over segment
`s : Fin 32` and position `j : Fin 3`, the flat index being `s * 3 + j`. -/
theorem sum_fin96 (g : Fin 96 → ℝ) :
    ∑ q : Fin 96, g q
      = ∑ s : Fin 32, ∑ j : Fin 3, g ⟨s.val * 3 + j.val, by have := s.isLt; have := j.isLt; omega⟩ := by
  rw [← (finProdFinEquiv (m := 32) (n := 3)).sum_comp g, Fintype.sum_prod_type]
  refine Finset.sum_congr rfl fun s _ => Finset.sum_congr rfl fun j _ => ?_
  congr 1
  apply Fin.ext
  simp [finProdFinEquiv, Nat.mul_comm, Nat.add_comm]

/-- The weighted sum over a row of `32 · 3` finite entries with weights `W j / 32` equals the
weighted sum over `j` of the segment averages `(0 + ∑ s, S s j) / 32`. -/
theorem seg_fold (S : Fin 32 → Fin 3 → EReal) (W : Fin 3 → EReal)
    (hS : ∀ s j, IsFin (S s j)) (hW : ∀ j, IsFin (W j)) :
    (∑ q : Fin 96, S ⟨q.val / 3, by have := q.isLt; omega⟩ ⟨q.val % 3, by omega⟩
        * Ideal.div (W ⟨q.val % 3, by omega⟩) (Ideal.ofBits .f32 0x42000000#32))
      = ∑ j : Fin 3, Ideal.div (Ideal.ofBits .f32 0x00000000#32 + ∑ s : Fin 32, S s j)
          (Ideal.ofBits .f32 0x42000000#32) * W j := by
  -- every entry and weight is the coercion of a real number
  choose S' hS' using hS
  choose W' hW' using hW
  obtain rfl : S = fun s j => ((S' s j : ℝ) : EReal) := funext fun s => funext (hS' s)
  obtain rfl : W = fun j => ((W' j : ℝ) : EReal) := funext hW'
  -- the two constants are 32 and 0; division by 32 is multiplication by 1 / 32
  rw [ofBits_32, Ideal.ofBits_zero_f32]
  simp only [Ideal.div_coe (by norm_num : (32 : ℝ) ≠ 0), zero_add, ← EReal.coe_mul, ← coe_sum]
  congr 1
  -- the identity over the reals: split the flat index, then distribute
  have hdiv : ∀ (s : Fin 32) (j : Fin 3) (h : (s.val * 3 + j.val) / 3 < 32),
      (⟨(s.val * 3 + j.val) / 3, h⟩ : Fin 32) = s := by
    intro s j h
    apply Fin.ext
    have := j.isLt
    show (s.val * 3 + j.val) / 3 = s.val
    omega
  have hmod : ∀ (s : Fin 32) (j : Fin 3) (h : (s.val * 3 + j.val) % 3 < 3),
      (⟨(s.val * 3 + j.val) % 3, h⟩ : Fin 3) = j := by
    intro s j h
    apply Fin.ext
    have := j.isLt
    show (s.val * 3 + j.val) % 3 = j.val
    omega
  rw [sum_fin96]
  simp only [hdiv, hmod]
  rw [Finset.sum_comm]
  refine Finset.sum_congr rfl fun j _ => ?_
  rw [Finset.sum_mul, Finset.sum_mul]
  refine Finset.sum_congr rfl fun s _ => ?_
  ring

/-- Addition on `EReal` is commutative and associative, so the five summands may be taken in
either of the two orders. -/
theorem fuse_law (A B B' bl bs pos : EReal) (h : B' = B) :
    (A + B') + ((pos + bl) + bs) = (((A + bl) + B) + bs) + pos := by
  subst h
  ac_rfl

end Cert.SegFold

end
-- ==== Proof.Bridge.lean ====
/-
  The kernel's result array is the reference's result, entry by entry, when the segments and the segment weights
  are finite.

  At entry (b, k, d) the kernel's array holds

      (∑ p, patches(b, k, p) · W_lin(d, p)) + (∑ q < 96, seg(b, 32k + q / 3, q % 3) · (W_seg(d, q % 3) / 32))
        + ((pos(k, d) + b_lin(d)) + b_seg(d)),

  and the reference's holds

      ((((∑ p, patches(b, k, p) · W_lin(d, p)) + b_lin(d))
          + ∑ j < 3, ((0 + ∑ s < 32, seg(b, 32k + s, j)) / 32) · W_seg(d, j)) + b_seg(d)) + pos(k, d).

  The two sums over the segments agree over finite entries (averaging commutes with the weighted sum); the rest is a
  reordering of five summands.
-/
import proofs.«110487_j47596827574387_2_alg».proof.Proof.Gen.ReferenceIdeal.Read
import proofs.«110487_j47596827574387_2_alg».proof.Proof.KernelArray
import proofs.«110487_j47596827574387_2_alg».proof.Proof.HostPrefix
import proofs.«110487_j47596827574387_2_alg».proof.Proof.SegFold
import proofs.«110487_j47596827574387_2_alg».proof.Proof.LibERealMatmul

noncomputable section

namespace Cert.Bridge

open Idealize.ShloMosaic Idealize.ShloMosaic.ValueIdx Idealize.ShloMosaic.TcCoe Idealize.SL.Sem
open Cert.KernelIdeal Cert.KernelIdeal.Gen Cert.KernelIdeal.Whole Cert.KernelIdeal.Prefix
open Cert.ReferenceIdeal.Read Cert.LibERealMatmul

variable (m : (ℓ : Loc nD τ sig) → Buf (Elt Ideal) ℓ) (c : Dev nD)

/-! ## The reference's index functions at an index given by its coordinates -/

theorem lidx4 (b : Fin 64) (k : Fin 512) (d : Fin 1024) (p : Fin 64) : lidx_main_v4 (ix3 b k d) p = ix3 b k p :=
  funext fun a => by match a with | ⟨0, _⟩ => rfl | ⟨1, _⟩ => rfl | ⟨2, _⟩ => rfl
theorem ridx4 (b : Fin 64) (k : Fin 512) (d : Fin 1024) (p : Fin 64) : ridx_main_v4 (ix3 b k d) p = ix2 d p :=
  funext fun a => by match a with | ⟨0, _⟩ => rfl | ⟨1, _⟩ => rfl
theorem idx56 (b : Fin 64) (k : Fin 512) (d : Fin 1024) : idx_main_v5 (idx_main_v6 (ix3 b k d)) = ix1 d :=
  funext fun a => by match a with | ⟨0, _⟩ => rfl
theorem idx1011 (b : Fin 64) (k : Fin 512) (d : Fin 1024) : idx_main_v10 (idx_main_v11 (ix3 b k d)) = ix1 d :=
  funext fun a => by match a with | ⟨0, _⟩ => rfl
theorem idx1314 (b : Fin 64) (k : Fin 512) (d : Fin 1024) : idx_main_v13 (idx_main_v14 (ix3 b k d)) = ix2 k d :=
  funext fun a => by match a with | ⟨0, _⟩ => rfl | ⟨1, _⟩ => rfl
theorem ridx8 (b : Fin 64) (k : Fin 512) (d : Fin 1024) (j : Fin 3) : ridx_main_v8 (ix3 b k d) j = ix2 d j :=
  funext fun a => by match a with | ⟨0, _⟩ => rfl | ⟨1, _⟩ => rfl
/-- Row `k`, chunk position `s`, coordinate `j` of the [64, 512, 32, 3] view is segment row `32k + s`. -/
theorem idx018 (b : Fin 64) (k : Fin 512) (d : Fin 1024) (j : Fin 3) (s : Fin 32) :
    idx_main_v0 (idx_main_v1 (lidx_main_v8 (ix3 b k d) j) s) = ix3 b (segRow k s) j := by
  have hb : b.val < 64 := b.isLt
  have hk : k.val < 512 := k.isLt
  have hj : j.val < 3 := j.isLt
  have hs : s.val < 32 := s.isLt
  funext a
  apply Fin.ext
  match a with
  | ⟨0, _⟩ => show (((b.val * 512 + k.val) * 32 + s.val) * 3 + j.val) / 49152 = b.val; omega
  | ⟨1, _⟩ => show (((b.val * 512 + k.val) * 32 + s.val) * 3 + j.val) / 3 % 16384 = k.val * 32 + s.val; omega
  | ⟨2, _⟩ => show (((b.val * 512 + k.val) * 32 + s.val) * 3 + j.val) % 3 = j.val; omega

/-! ## The two sides at an entry -/

/-- The reference's result at entry (b, k, d). -/
theorem ref_apply (x0 : S64x512x64.Idx → EReal) (x1 : S64x16384x3.Idx → EReal) (x2 : S1024x64.Idx → EReal)
    (x3 : S1024.Idx → EReal) (x4 : S1024x3.Idx → EReal) (x5 : S1024.Idx → EReal) (x6 : S512x1024.Idx → EReal)
    (b : Fin 64) (k : Fin 512) (d : Fin 1024) :
    val_main_v15 (F := Ideal) x0 x1 x2 x3 x4 x5 x6 (ix3 b k d)
      = ((((∑ p : Fin 64, x0 (ix3 b k p) * x2 (ix2 d p)) + x3 (ix1 d))
          + ∑ j : Fin 3, Ideal.div (Ideal.ofBits .f32 0x00000000#32 + ∑ s : Fin 32, x1 (ix3 b (segRow k s) j))
              (Ideal.ofBits .f32 0x42000000#32) * x4 (ix2 d j)) + x5 (ix1 d)) + x6 (ix2 k d) := by
  rw [val_main_v15_apply, val_main_v12_apply, val_main_v9_apply, val_main_v7_apply, val_main_v4_apply, val_main_v6_apply,
    val_main_v5_apply, val_main_v8_apply, val_main_v11_apply, val_main_v10_apply, val_main_v14_apply, val_main_v13_apply]
  simp only [val_main_v3_apply, val_main_v1_apply, val_main_v2_apply, val_main_cst_0_apply, val_main_cst_apply, val_main_v0_apply,
    Ideal.addf_def, Ideal.hostDivf_def, Ideal.ofBits_def, lidx4, ridx4, idx56, idx1011, idx1314, ridx8, idx018]

/-- The kernel's result at entry (b, k, d), in the arguments. -/
theorem ker_apply (b : Fin 64) (k : Fin 512) (d : Fin 1024) :
    G (P m c) (Sg m c) (Wl m c) (We m c) (T m c) (ix3 b k d)
      = ((∑ p : Fin 64, patches m c (ix3 b k p) * wLin m c (ix2 d p))
          + (∑ q : Fin 96, segments m c (ix3 b (segRow k (qs q)) (qj q))
              * Ideal.div (wSeg m c (ix2 d (qj q))) (Ideal.ofBits .f32 0x42000000#32)))
        + ((pos m c (ix2 k d) + bLin m c (ix1 d)) + bSeg m c (ix1 d)) := by
  rw [G_apply]
  unfold entry
  refine congrArg₂ (· + ·) (congrArg₂ (· + ·) ?_ ?_) (V_v13_apply m c k d)
  · refine Finset.sum_congr rfl fun p _ => ?_
    exact congrArg₂ (· * ·) (congrFun (V_main_arg0 m c) (ix3 b k p)) (V_v7_apply m c p d)
  · refine Finset.sum_congr rfl fun q _ => ?_
    exact congrArg₂ (· * ·) (V_v0_apply m c b k q) (V_v6_apply m c q d)

/-- The kernel's result array is the reference's result term of the same arguments, when every segment entry and every
    segment weight is finite. -/
theorem kernel_eq_ref (hseg : ∀ i, IsFin (segments m c i)) (hw : ∀ i, IsFin (wSeg m c i)) :
    G (P m c) (Sg m c) (Wl m c) (We m c) (T m c)
      = val_main_v15 (F := Ideal) (patches m c) (segments m c) (wLin m c) (bLin m c) (wSeg m c) (bSeg m c) (pos m c) := by
  funext i
  obtain ⟨b, k, d, rfl⟩ : ∃ (b : Fin 64) (k : Fin 512) (d : Fin 1024), i = ix3 b k d := ⟨i 0, i 1, i 2, eq_ix3 i⟩
  rw [ker_apply, ref_apply]
  exact Cert.SegFold.fuse_law _ _ _ _ _ _
    (Cert.SegFold.seg_fold (fun s j => segments m c (ix3 b (segRow k s) j)) (fun j => wSeg m c (ix2 d j))
      (fun s j => hseg _) (fun j => hw _))

end Cert.Bridge

end
-- ==== Proof.lean ====
/-
  The kernel and its reference compute the same array over the extended reals, when every input is finite.

  Both take patches [64, 512, 64], segments [64, 16384, 3], linear weights and bias, segment weights and bias, and a
  positional table, and return [64, 512, 1024]. The reference averages each run of 32 consecutive segment rows,
  multiplies the average by the segment weights, and adds the patches' linear image, the two biases and the table.
  The kernel lays the 32 rows of a run end to end (96 numbers), multiplies by the segment weights repeated 32 times
  and divided by 32, and adds the linear image and one table that already holds the positional table plus both
  biases. Averaging commutes with the weighted sum when the entries are finite, and the remaining difference is the
  order of five summands.

  The modules: Proof/KernelBlock (one grid step's stored entry as two sums of products plus the table's entry),
  Proof/HostPrefix (the arrays the host operations hand to the call, entry by entry), Proof/KernelArray (the 32 blocks
  tile the result: the whole array as one function), Proof/SegFold (averaging commutes with the weighted sum),
  Proof/FiniteArgs (the precondition makes every input entry a real number), Proof/Bridge (the kernel's array is the
  reference's result term); here the five claims are assembled. The three frames are the generated ones; the
  idealization rewrote nothing, so what it preserves is trivially so.
-/
import proofs.«110487_j47596827574387_2_alg».proof.Defs
import proofs.«110487_j47596827574387_2_alg».proof.Proof.Gen.Kernel
import proofs.«110487_j47596827574387_2_alg».proof.Proof.Gen.Kernel.Skeleton
import proofs.«110487_j47596827574387_2_alg».proof.Proof.Gen.Kernel.Launch
import proofs.«110487_j47596827574387_2_alg».proof.Proof.Gen.Kernel.Points
import proofs.«110487_j47596827574387_2_alg».proof.Proof.Gen.Kernel.Frame
import proofs.«110487_j47596827574387_2_alg».proof.Proof.Gen.KernelIdeal
import proofs.«110487_j47596827574387_2_alg».proof.Proof.Gen.KernelIdeal.Skeleton
import proofs.«110487_j47596827574387_2_alg».proof.Proof.Gen.KernelIdeal.Launch
import proofs.«110487_j47596827574387_2_alg».proof.Proof.Gen.KernelIdeal.Points
import proofs.«110487_j47596827574387_2_alg».proof.Proof.Gen.KernelIdeal.Frame
import proofs.«110487_j47596827574387_2_alg».proof.Proof.Gen.ReferenceIdeal
import proofs.«110487_j47596827574387_2_alg».proof.Proof.Gen.Pre_finite_inputs
import proofs.«110487_j47596827574387_2_alg».proof.Proof.Gen.KernelIdeal.Value
import proofs.«110487_j47596827574387_2_alg».proof.Proof.Gen.ReferenceIdeal.Run
import proofs.«110487_j47596827574387_2_alg».proof.Proof.Gen.ReferenceIdeal.Read
import proofs.«110487_j47596827574387_2_alg».proof.Proof.KernelArray
import proofs.«110487_j47596827574387_2_alg».proof.Proof.HostPrefix
import proofs.«110487_j47596827574387_2_alg».proof.Proof.FiniteArgs
import proofs.«110487_j47596827574387_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the reference's result term of the (shared) arguments: the reference by its run, the
    kernel because its 32 blocks tile the result with a function that equals that term once the segments and the
    segment weights are finite, which the precondition gives. -/
theorem algebraic : Cert.algebraic_KernelIdeal_ReferenceIdeal := by
  intro m ρ m' ρ' hpre hagree
  refine ⟨fun c => Cert.ReferenceIdeal.Read.val_main_v15 (F := Ideal)
      (Cert.KernelIdeal.Prefix.patches m c) (Cert.KernelIdeal.Prefix.segments m c) (Cert.KernelIdeal.Prefix.wLin m c)
      (Cert.KernelIdeal.Prefix.bLin m c) (Cert.KernelIdeal.Prefix.wSeg m c) (Cert.KernelIdeal.Prefix.bSeg m c)
      (Cert.KernelIdeal.Prefix.pos m c), ?_, ?_⟩
  · refine (θ_run Cert.KernelIdeal.defs _ _).mono (fun r h c => ⟨(h c).1.trans ?_, (h c).2⟩)
      (Cert.KernelIdeal.Whole.run m ρ)
    obtain ⟨-, h1, -, -, h4, -, -⟩ := Cert.FiniteArgs.args_finite _ _ _ _ _ _ _ (hpre c)
    exact Cert.Bridge.kernel_eq_ref m c h1 h4
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact Cert.ReferenceIdeal.Read.val_main_v15_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
